-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x128x128x128 : Shape := ⟨5, ![8, 1, 128, 128, 128]⟩
abbrev S_ : Shape := ⟨0, ![]⟩

class Facts : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts]

def fn {F : FTy → Type} [FloatOps F] (main_arg0 : FVec F S8x1x128x128x128 .f32) (main_arg1 : FVec F S8x1x128x128x128 .f32) (main_arg2 : FVec F S8x1x128x128x128 .f32) : IVec S_ 1 :=
  let main_v0 : FVec F S8x1x128x128x128 .f32 := Host.absf main_arg0
  let main_cst : FVec F S_ .f32 := constant S_ .f32 0x7F800000#32
  let main_v1 : FVec F S8x1x128x128x128 .f32 := broadcastInDim S8x1x128x128x128 ![] bcast_S_S8x1x128x128x128 main_cst
  let main_v2 : IVec S8x1x128x128x128 1 := cmpf .olt main_v0 main_v1
  let main_c : IVec S_ 1 := constantI S_ 1 1#1
  let main_v3 : IVec S_ 1 := (fun x v => Host.reduce IntOp.andi x v reducesTo_S8x1x128x128x128_S_d0_1_2_3_4 h_S_) main_v2 main_c
  let main_v4 : FVec F S8x1x128x128x128 .f32 := Host.absf main_arg1
  let main_cst_0 : FVec F S_ .f32 := constant S_ .f32 0x7F800000#32
  let main_v5 : FVec F S8x1x128x128x128 .f32 := broadcastInDim S8x1x128x128x128 ![] bcast_S_S8x1x128x128x128 main_cst_0
  let main_v6 : IVec S8x1x128x128x128 1 := cmpf .olt main_v4 main_v5
  let main_c_1 : IVec S_ 1 := constantI S_ 1 1#1
  let main_v7 : IVec S_ 1 := (fun x v => Host.reduce IntOp.andi x v reducesTo_S8x1x128x128x128_S_d0_1_2_3_4 h_S_) main_v6 main_c_1
  let main_v8 : IVec S_ 1 := andi main_v3 main_v7
  let main_v9 : FVec F S8x1x128x128x128 .f32 := Host.absf main_arg2
  let main_cst_2 : FVec F S_ .f32 := constant S_ .f32 0x7F800000#32
  let main_v10 : FVec F S8x1x128x128x128 .f32 := broadcastInDim S8x1x128x128x128 ![] bcast_S_S8x1x128x128x128 main_cst_2
  let main_v11 : IVec S8x1x128x128x128 1 := cmpf .olt main_v9 main_v10
  let main_c_3 : IVec S_ 1 := constantI S_ 1 1#1
  let main_v12 : IVec S_ 1 := (fun x v => Host.reduce IntOp.andi x v reducesTo_S8x1x128x128x128_S_d0_1_2_3_4 h_S_) main_v11 main_c_3
  let main_v13 : IVec S_ 1 := andi main_v8 main_v12
  main_v13
-- ==== Kernel.lean ====
abbrev S8x1x128x128x128 : Shape := ⟨5, ![8, 1, 128, 128, 128]⟩
abbrev S2x8x1 : Shape := ⟨3, ![2, 8, 1]⟩
abbrev S8x1x8x128x128 : Shape := ⟨5, ![8, 1, 8, 128, 128]⟩
abbrev S1x8x1 : Shape := ⟨3, ![1, 8, 1]⟩
abbrev S8x1 : Shape := ⟨2, ![8, 1]⟩
abbrev S8x8x128x128 : Shape := ⟨4, ![8, 8, 128, 128]⟩
abbrev S8x8x128 : Shape := ⟨3, ![8, 8, 128]⟩
abbrev S8x8 : Shape := ⟨2, ![8, 8]⟩
abbrev S8x8x1 : Shape := ⟨3, ![8, 8, 1]⟩
abbrev S8x1x1 : Shape := ⟨3, ![8, 1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S2x8x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x1x8x128x128, .f32⟩
  | .local _ .vmem, ⟨1, _⟩ => ⟨S8x1x8x128x128, .f32⟩
  | .local _ .vmem, ⟨2, _⟩ => ⟨S8x1x8x128x128, .f32⟩
  | .local _ .vmem, ⟨3, _⟩ => ⟨S8x1x8x128x128, .f32⟩
  | .local _ .vmem, ⟨4, _⟩ => ⟨S8x1x8x128x128, .f32⟩
  | .local _ .vmem, ⟨5, _⟩ => ⟨S8x1x8x128x128, .f32⟩
  | .local _ .vmem, ⟨6, _⟩ => ⟨S1x8x1, .f32⟩
  | .local _ .vmem, ⟨7, _⟩ => ⟨S1x8x1, .f32⟩
  | _, _ => ⟨S8x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  inb_S8x1x8x128x128_S8x1x8x128x128_0_0_0_0_0 : ∀ a, (![0, 0, 0, 0, 0] : Fin 5 → Nat) a + S8x1x8x128x128.size a ≤ S8x1x8x128x128.size a
  h_S8x1x8x128x128 : 0 < S8x1x8x128x128.numel
  shapeCasts_S8x1x8x128x128_S8x8x128x128 : S8x1x8x128x128.ShapeCasts S8x8x128x128
  reduces_S8x8x128x128_S8x8x128 : S8x8x128x128.Reduces [2] S8x8x128
  reduces_S8x8x128_S8x8 : S8x8x128.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  shapeCasts_S8x1x1_S8x1 : S8x1x1.ShapeCasts S8x1
  reducesTo_S2x8x1_S_d0_1_2 : S2x8x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x8x128x128.size a ≤ S8x1x128x128x128.size a
  hwx0_0 : ∀ i : grid0.Coords, EltTy.bits .f32 = 32 ∨ (Rect.block (s := S8x1x128x128x128) S8x1x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x8x128x128.size a ≤ S8x1x128x128x128.size a
  hwx0_1 : ∀ i : grid0.Coords, EltTy.bits .f32 = 32 ∨ (Rect.block (s := S8x1x128x128x128) S8x1x8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x8x128x128.size a ≤ S8x1x128x128x128.size a
  hwx0_2 : ∀ i : grid0.Coords, EltTy.bits .f32 = 32 ∨ (Rect.block (s := S8x1x128x128x128) S8x1x8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1.size a ≤ S2x8x1.size a
  hwx0_3 : ∀ i : grid0.Coords, EltTy.bits .f32 = 32 ∨ (Rect.block (s := S2x8x1) S1x8x1.size (cc0_transform_3 i) (hinb0_3 i)).WholeWords (EltTy.packing .f32)

variable [Facts₀]

abbrev win0_0 : Pipeline.Window sig grid0 :=
  Pipeline.Window.ofSpec (Memref.whole main_arg0) S8x1x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x128x128x128 : Shape := ⟨5, ![8, 1, 128, 128, 128]⟩
abbrev S8x128x128x128 : Shape := ⟨4, ![8, 128, 128, 128]⟩
abbrev S_ : Shape := ⟨0, ![]⟩
abbrev S8x128x128 : Shape := ⟨3, ![8, 128, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S8x128x128x128, .f32⟩
  | .hbm, ⟨4, _⟩ => ⟨S8x128x128x128, .f32⟩
  | .hbm, ⟨5, _⟩ => ⟨S8x128x128x128, .f32⟩
  | .hbm, ⟨6, _⟩ => ⟨S8x128x128x128, .f32⟩
  | .hbm, ⟨7, _⟩ => ⟨S8x128x128x128, .f32⟩
  | .hbm, ⟨8, _⟩ => ⟨S8x128x128x128, .f32⟩
  | .hbm, ⟨9, _⟩ => ⟨S_, .f32⟩
  | .hbm, ⟨10, _⟩ => ⟨S8x128x128, .f32⟩
  | .hbm, ⟨11, _⟩ => ⟨S8x128x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S8x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  shapeCasts_S8x1x128x128x128_S8x128x128x128 : S8x1x128x128x128.ShapeCasts S8x128x128x128
  reducesTo_S8x128x128x128_S8x128x128_d2 : S8x128x128x128.ReducesTo [2] S8x128x128
  h_S_ : 0 < S_.numel
  reducesTo_S8x128x128_S_d0_1_2 : S8x128x128.ReducesTo [0, 1, 2] S_

variable [Facts₀]

class Facts : Prop extends Facts₀ where

variable [Facts]
-- ==== Proof.KernelBody.lean ====
/-
  What one run of the kernel body leaves in the output's staging buffer, for each of its two control cases, as the
  body's arithmetic applied to the three loaded input blocks.
  At an inner step other than the first the body adds this step's partial sums to what the buffer held; at the first
  inner step it first stores zeros, reads them back, and adds to those.
-/
import proofs.«178096_j8306466751246_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- A later inner step: the buffer held `xo`; the body leaves its payload of the three blocks and `xo`. -/
theorem out_B (c : Dev nD) (i : grid0.Coords) (a2 : Memref sig .tc .vmem S8x1x8x128x128 .f32) (h2 : a2.IsWhole)
    (a3 : Memref sig .tc .vmem S8x1x8x128x128 .f32) (h3 : a3.IsWhole) (a4 : Memref sig .tc .vmem S8x1x8x128x128 .f32) (h4 : a4.IsWhole)
    (a5 : Memref sig .tc .vmem S1x8x1 .f32) (h5 : a5.IsWhole) (hc : ¬cond0_0 i)
    (x0 x1 x2 : Vec F S8x1x8x128x128 .f32) (xo : Vec F S1x8x1 .f32) :
    out0_B_3 c i a2 h2 a3 h3 a4 h4 a5 h5 hc x0 x1 x2 xo = k0_pay2 x1 x0 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S8x1x8x128x128) hz5, View.ld_unit_zero (S := S1x8x1) hz3]

/-- The first inner step: the body stores the zero block, reads it back, and leaves its payload of the three blocks
    and that zero block. -/
theorem out_A (c : Dev nD) (i : grid0.Coords) (a2 : Memref sig .tc .vmem S8x1x8x128x128 .f32) (h2 : a2.IsWhole)
    (a3 : Memref sig .tc .vmem S8x1x8x128x128 .f32) (h3 : a3.IsWhole) (a4 : Memref sig .tc .vmem S8x1x8x128x128 .f32) (h4 : a4.IsWhole)
    (a5 : Memref sig .tc .vmem S1x8x1 .f32) (h5 : a5.IsWhole) (hc : cond0_0 i)
    (x0 x1 x2 : Vec F S8x1x8x128x128 .f32) :
    out0_A_3 c i a2 h2 a3 h3 a4 h4 a5 h5 hc x0 x1 x2 = k0_pay2 x1 x0 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x1) hz3, View.readCov_unit_zero (S := S1x8x1) _ hz3]
  simp only [View.readAt_eq_ld, h2.read_unread, h3.read_unread, h4.read_unread,
    View.ld_unit_zero (S := S8x1x8x128x128) hz5]

end Cert.KernelIdeal.Body

end
-- ==== Proof.PayloadIdx.lean ====
/-
  The layout changes and the three sums of the kernel body, each read at an index over explicit coordinates.
  A reshape keeps the row-major position; a sum over one axis, read at an index of the result, runs over the source
  indices with that axis's coordinate put back.
-/
import proofs.«178096_j8306466751246_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.PayloadIdx

open Cert.KernelIdeal Idealize.ShloMosaic Idealize.ShloMosaic.ValueIdx
open scoped BigOperators

section Layout
variable {α : Type}

/-- [8,1,8,128,128] → [8,8,128,128]: (b, x, y, z) reads (b, 0, x, y, z). -/
theorem cast_drop_unit (v : S8x1x8x128x128.Idx → α) (h : S8x1x8x128x128.ShapeCasts S8x8x128x128)
    (b x : Fin 8) (y z : Fin 128) : shapeCast S8x8x128x128 v h (ix4 b x y z) = v (ix5 b 0 x y z) := by
  refine shapeCast_apply v h (ix4 b x y z) (ix5 b 0 x y z) ?_
  rewrite [Shape.rowMajor_val_five, Shape.rowMajor_val_four]
  show (((b.val * 1 + 0) * 8 + x.val) * 128 + y.val) * 128 + z.val = ((b.val * 8 + x.val) * 128 + y.val) * 128 + z.val
  omega

/-- [8,8] → [8,8,1]: (b, x, 0) reads (b, x). -/
theorem cast_keep_z (v : S8x8.Idx → α) (h : S8x8.ShapeCasts S8x8x1) (b x : Fin 8) :
    shapeCast S8x8x1 v h (ix3 b x 0) = v (ix2 b x) := by
  refine shapeCast_apply v h (ix3 b x 0) (ix2 b x) ?_
  rewrite [Shape.rowMajor_val_two, Shape.rowMajor_val_three]
  show b.val * 8 + x.val = (b.val * 8 + x.val) * 1 + 0
  omega

/-- [1,8,1] → [8,1]: (b, 0) reads (0, b, 0). -/
theorem cast_out_in (v : S1x8x1.Idx → α) (h : S1x8x1.ShapeCasts S8x1) (b : Fin 8) :
    shapeCast S8x1 v h (ix2 b 0) = v (ix3 0 b 0) := by
  refine shapeCast_apply v h (ix2 b 0) (ix3 0 b 0) ?_
  rewrite [Shape.rowMajor_val_three, Shape.rowMajor_val_two]
  show (0 * 8 + b.val) * 1 + 0 = b.val * 1 + 0
  omega

/-- [8,1] → [1,8,1]: (0, b, 0) reads (b, 0). -/
theorem cast_in_out (v : S8x1.Idx → α) (h : S8x1.ShapeCasts S1x8x1) (b : Fin 8) :
    shapeCast S1x8x1 v h (ix3 0 b 0) = v (ix2 b 0) := by
  refine shapeCast_apply v h (ix3 0 b 0) (ix2 b 0) ?_
  rewrite [Shape.rowMajor_val_two, Shape.rowMajor_val_three]
  show b.val * 1 + 0 = (0 * 8 + b.val) * 1 + 0
  omega

end Layout

/-- The y axis put back into (b, x, z). -/
theorem lift_y (h : S8x8x128x128.Reduces [2] S8x8x128) (b x : Fin 8) (z y : Fin 128) :
    h.lift (ix3 b x z) y = ix4 b x y z :=
  funext fun a => Fin.ext (by match a with | ⟨0, _⟩ => rfl | ⟨1, _⟩ => rfl | ⟨2, _⟩ => rfl | ⟨3, _⟩ => rfl)

/-- The z axis put back into (b, x). -/
theorem lift_z (h : S8x8x128.Reduces [2] S8x8) (b x : Fin 8) (z : Fin 128) :
    h.lift (ix2 b x) z = ix3 b x z :=
  funext fun a => Fin.ext (by match a with | ⟨0, _⟩ => rfl | ⟨1, _⟩ => rfl | ⟨2, _⟩ => rfl)

/-- The x axis put back into (b, 0). -/
theorem lift_x (h : S8x8x1.Reduces [1] S8x1) (b x : Fin 8) :
    h.lift (ix2 b 0) x = ix3 b x 0 :=
  funext fun a => Fin.ext (by match a with | ⟨0, _⟩ => rfl | ⟨1, _⟩ => rfl | ⟨2, _⟩ => rfl)

/-- The sum over y at (b, x, z). -/
theorem sum_y (src : FVec Ideal S8x8x128x128 .f32) (h : S8x8x128x128.Reduces [2] S8x8x128) (hφ : FKind.Formats FTy.f32)
    (hacc : (0x00000000#32 : BitVec 32) = 0x00000000#32) (b x : Fin 8) (z : Fin 128) :
    multiReduction .add [2] S8x8x128 src 0x00000000#32 h hφ hacc (ix3 b x z) = ∑ y : Fin 128, src (ix4 b x y z) :=
  (Ideal.multiReduction_add_single src 0x00000000#32 h hφ hacc (ix3 b x z)).trans
    (Finset.sum_congr rfl fun y _ => congrArg src (lift_y h b x z y))

/-- The sum over z at (b, x). -/
theorem sum_z (src : FVec Ideal S8x8x128 .f32) (h : S8x8x128.Reduces [2] S8x8) (hφ : FKind.Formats FTy.f32)
    (hacc : (0x00000000#32 : BitVec 32) = 0x00000000#32) (b x : Fin 8) :
    multiReduction .add [2] S8x8 src 0x00000000#32 h hφ hacc (ix2 b x) = ∑ z : Fin 128, src (ix3 b x z) :=
  (Ideal.multiReduction_add_single src 0x00000000#32 h hφ hacc (ix2 b x)).trans
    (Finset.sum_congr rfl fun z _ => congrArg src (lift_z h b x z))

/-- The sum over x at (b, 0). -/
theorem sum_x (src : FVec Ideal S8x8x1 .f32) (h : S8x8x1.Reduces [1] S8x1) (hφ : FKind.Formats FTy.f32)
    (hacc : (0x00000000#32 : BitVec 32) = 0x00000000#32) (b : Fin 8) :
    multiReduction .add [1] S8x1 src 0x00000000#32 h hφ hacc (ix2 b 0) = ∑ x : Fin 8, src (ix3 b x 0) :=
  (Ideal.multiReduction_add_single src 0x00000000#32 h hφ hacc (ix2 b 0)).trans
    (Finset.sum_congr rfl fun x _ => congrArg src (lift_x h b x))

end Cert.KernelIdeal.PayloadIdx

end
-- ==== Proof.Payload.lean ====
/-
  The kernel body's arithmetic on the extended reals, read at the output block's index (0, b, 0):
  what the buffer held there, plus the sum over this tile's eight rows x and all z of √(∑ over y of (mk · (no − gt))²).
  The zero block the first inner step stores is 0 everywhere.
-/
import proofs.«178096_j8306466751246_2_alg».proof.Proof.Gen.KernelIdeal.Skeleton
import proofs.«178096_j8306466751246_2_alg».proof.Proof.PayloadIdx

noncomputable section

namespace Cert.KernelIdeal.Payload

open Cert.KernelIdeal Cert.KernelIdeal.Gen Cert.KernelIdeal.PayloadIdx Idealize.ShloMosaic Idealize.ShloMosaic.ValueIdx
open scoped BigOperators

/-- The zero block is 0 at every index. -/
theorem pay1_apply (j : S1x8x1.Idx) : k0_pay1 (F := Ideal) j = 0 := by
  unfold k0_pay1
  show Ideal.ofBits .f32 0x00000000#32 = 0
  exact Ideal.ofBits_zero_f32

/-- The accumulating store's value at (0, b, 0); `no`, `gt`, `mk` are the three loaded blocks and `acc` what the
    output buffer held. -/
theorem pay2_apply (no gt mk : FVec Ideal S8x1x8x128x128 .f32) (acc : FVec Ideal S1x8x1 .f32) (b : Fin 8) :
    k0_pay2 (F := Ideal) no gt mk acc (ix3 0 b 0)
      = acc (ix3 0 b 0) + ∑ x : Fin 8, ∑ z : Fin 128, Ideal.sqrt (∑ y : Fin 128,
          (mk (ix5 b 0 x y z) * (no (ix5 b 0 x y z) - gt (ix5 b 0 x y z)))
            * (mk (ix5 b 0 x y z) * (no (ix5 b 0 x y z) - gt (ix5 b 0 x y z)))) := by
  unfold k0_pay2
  dsimp only
  refine (cast_in_out _ _ b).trans ?_
  refine congrArg₂ (· + ·) (cast_out_in acc _ b) ?_
  refine (congrFun (shapeCast_shapeCast _ _ _) (ix2 b 0)).trans ?_
  refine (sum_x _ _ _ _ b).trans ?_
  refine Finset.sum_congr rfl fun x _ => ?_
  refine (cast_keep_z _ _ b x).trans ?_
  refine (sum_z _ _ _ _ b x).trans ?_
  refine Finset.sum_congr rfl fun z _ => ?_
  refine congrArg Ideal.sqrt ?_
  refine (sum_y _ _ _ _ b x z).trans ?_
  refine Finset.sum_congr rfl fun y _ => ?_
  simp only [mulf_apply, subf_apply, cast_drop_unit]

end Cert.KernelIdeal.Payload

end
-- ==== Proof.Blocks.lean ====
/-
  Where the windows' blocks sit. At grid point t (t = 8 · half + inner step) each input window's block is tile t of
  its array: rows 8t … 8t + 7 of the x axis, everything of the other axes. The output window's block at point t is
  row t / 8 of the [2, 8, 1] array of partial sums.
-/
import proofs.«178096_j8306466751246_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The input windows' block indices, decided over the grid: the x axis moves with the point, the others stay. -/
theorem idx_in : ∀ t : Fin cfg0.N,
    (win0_0.index t (0 : Fin 5) = 0 ∧ win0_0.index t (1 : Fin 5) = 0 ∧ win0_0.index t (2 : Fin 5) = t.val
      ∧ win0_0.index t (3 : Fin 5) = 0 ∧ win0_0.index t (4 : Fin 5) = 0)
    ∧ (win0_1.index t (0 : Fin 5) = 0 ∧ win0_1.index t (1 : Fin 5) = 0 ∧ win0_1.index t (2 : Fin 5) = t.val
      ∧ win0_1.index t (3 : Fin 5) = 0 ∧ win0_1.index t (4 : Fin 5) = 0)
    ∧ (win0_2.index t (0 : Fin 5) = 0 ∧ win0_2.index t (1 : Fin 5) = 0 ∧ win0_2.index t (2 : Fin 5) = t.val
      ∧ win0_2.index t (3 : Fin 5) = 0 ∧ win0_2.index t (4 : Fin 5) = 0) :=
  (by decide +kernel : ∀ t : Fin grid0.N, _)

/-- The output window's block index, decided over the grid. -/
theorem idx_out : ∀ t : Fin cfg0.N,
    win0_3.index t (0 : Fin 3) = t.val / 8 ∧ win0_3.index t (1 : Fin 3) = 0 ∧ win0_3.index t (2 : Fin 3) = 0 :=
  (by decide +kernel : ∀ t : Fin grid0.N, _)

/-- Window 0's block at point t reads its array at row 8t + x'. -/
theorem iblk0_apply (c : Dev nD) (t : Fin cfg0.N) (b x' : Fin 8) (y z : Fin 128) (X : Fin 128) (hX : X.val = 8 * t.val + x'.val) :
    (iblk m c 0 t : Vec F S8x1x8x128x128 .f32) (ix5 b 0 x' y z) = V m c main_arg0 (ix5 b 0 X y z) := by
  obtain ⟨⟨e0, e1, e2, e3, e4⟩, -, -⟩ := idx_in t
  unfold iblk
  rw [View.read_apply]
  show V m c main_arg0 _ = V m c main_arg0 _
  refine congrArg (V m c main_arg0) ?_
  funext a
  apply Fin.ext
  match a with
  | ⟨0, _⟩ => show win0_0.index t (0 : Fin 5) * 8 + 1 * b.val = b.val; rw [e0]; omega
  | ⟨1, _⟩ => show win0_0.index t (1 : Fin 5) * 1 + 1 * 0 = 0; rw [e1]
  | ⟨2, _⟩ => show win0_0.index t (2 : Fin 5) * 8 + 1 * x'.val = X.val; rw [e2, hX]; omega
  | ⟨3, _⟩ => show win0_0.index t (3 : Fin 5) * 128 + 1 * y.val = y.val; rw [e3]; omega
  | ⟨4, _⟩ => show win0_0.index t (4 : Fin 5) * 128 + 1 * z.val = z.val; rw [e4]; omega

/-- Window 1's block at point t reads its array at row 8t + x'. -/
theorem iblk1_apply (c : Dev nD) (t : Fin cfg0.N) (b x' : Fin 8) (y z : Fin 128) (X : Fin 128) (hX : X.val = 8 * t.val + x'.val) :
    (iblk m c 1 t : Vec F S8x1x8x128x128 .f32) (ix5 b 0 x' y z) = V m c main_arg1 (ix5 b 0 X y z) := by
  obtain ⟨-, ⟨e0, e1, e2, e3, e4⟩, -⟩ := idx_in t
  unfold iblk
  rw [View.read_apply]
  show V m c main_arg1 _ = V m c main_arg1 _
  refine congrArg (V m c main_arg1) ?_
  funext a
  apply Fin.ext
  match a with
  | ⟨0, _⟩ => show win0_1.index t (0 : Fin 5) * 8 + 1 * b.val = b.val; rw [e0]; omega
  | ⟨1, _⟩ => show win0_1.index t (1 : Fin 5) * 1 + 1 * 0 = 0; rw [e1]
  | ⟨2, _⟩ => show win0_1.index t (2 : Fin 5) * 8 + 1 * x'.val = X.val; rw [e2, hX]; omega
  | ⟨3, _⟩ => show win0_1.index t (3 : Fin 5) * 128 + 1 * y.val = y.val; rw [e3]; omega
  | ⟨4, _⟩ => show win0_1.index t (4 : Fin 5) * 128 + 1 * z.val = z.val; rw [e4]; omega

/-- Window 2's block at point t reads its array at row 8t + x'. -/
theorem iblk2_apply (c : Dev nD) (t : Fin cfg0.N) (b x' : Fin 8) (y z : Fin 128) (X : Fin 128) (hX : X.val = 8 * t.val + x'.val) :
    (iblk m c 2 t : Vec F S8x1x8x128x128 .f32) (ix5 b 0 x' y z) = V m c main_arg2 (ix5 b 0 X y z) := by
  obtain ⟨-, -, e0, e1, e2, e3, e4⟩ := idx_in t
  unfold iblk
  rw [View.read_apply]
  show V m c main_arg2 _ = V m c main_arg2 _
  refine congrArg (V m c main_arg2) ?_
  funext a
  apply Fin.ext
  match a with
  | ⟨0, _⟩ => show win0_2.index t (0 : Fin 5) * 8 + 1 * b.val = b.val; rw [e0]; omega
  | ⟨1, _⟩ => show win0_2.index t (1 : Fin 5) * 1 + 1 * 0 = 0; rw [e1]
  | ⟨2, _⟩ => show win0_2.index t (2 : Fin 5) * 8 + 1 * x'.val = X.val; rw [e2, hX]; omega
  | ⟨3, _⟩ => show win0_2.index t (3 : Fin 5) * 128 + 1 * y.val = y.val; rw [e3]; omega
  | ⟨4, _⟩ => show win0_2.index t (4 : Fin 5) * 128 + 1 * z.val = z.val; rw [e4]; omega

end Cert.KernelIdeal.Blocks

end
-- ==== Proof.Spec.lean ====
/-
  The loss as one function of the three argument arrays, on the extended reals.

  For truth `gt`, output `no` and mask `mk`, all of shape [8, 1, 128, 128, 128] = [B, 1, X, Y, Z]:
    sq b x y z  = (mk · (no − gt))² at (b, 0, x, y, z)
    nrm b x z   = √(∑ over y of sq b x y z)
    total       = ∑ over b, x, z of nrm b x z
    loss        = total / 131072.
  The kernel computes `total` in another grouping: rows x are cut into 16 tiles of 8, tile p = rows 8p … 8p + 7, and
  the 16 tiles into two halves of 8; `tileSum p b` sums nrm over the rows of tile p and all z, `coreSum c b` sums the
  eight tiles of half c. Regrouping a finite sum uses only that + is commutative and associative, which holds
  on the extended reals without any finiteness (`total_eq`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An argument array read on the extended reals. -/
abbrev Arr := (⟨5, ![8, 1, 128, 128, 128]⟩ : Shape).Idx → EReal

/-- The masked difference, squared, at (b, 0, x, y, z). -/
def sq (gt no mk : Arr) (b : Fin 8) (x y z : Fin 128) : EReal :=
  (mk (ix5 b 0 x y z) * (no (ix5 b 0 x y z) - gt (ix5 b 0 x y z)))
    * (mk (ix5 b 0 x y z) * (no (ix5 b 0 x y z) - gt (ix5 b 0 x y z)))

/-- The Euclidean norm along y at (b, x, z). -/
def nrm (gt no mk : Arr) (b : Fin 8) (x z : Fin 128) : EReal := Ideal.sqrt (∑ y : Fin 128, sq gt no mk b x y z)

/-- The sum of all the norms. -/
def total (gt no mk : Arr) : EReal := ∑ b : Fin 8, ∑ x : Fin 128, ∑ z : Fin 128, nrm gt no mk b x z

/-- The loss: the mean of the norms, the divisor the f32 word of 131072 = 8 · 128 · 128. -/
def loss (gt no mk : Arr) : EReal := Ideal.div (total gt no mk) (Ideal.ofBits .f32 0x48000000#32)

/-- The norms of row `X` summed over z, for any natural `X` (zero past the last row, so that tiles can be indexed by
    naturals). -/
def rowSum (gt no mk : Arr) (b : Fin 8) (X : ℕ) : EReal :=
  if h : X < 128 then ∑ z : Fin 128, nrm gt no mk b ⟨X, h⟩ z else 0

/-- Tile `p`'s share: rows 8p … 8p + 7, all z. -/
def tileSum (gt no mk : Arr) (p : ℕ) (b : Fin 8) : EReal := ∑ x' ∈ Finset.range 8, rowSum gt no mk b (8 * p + x')

/-- Half `c`'s share: tiles 8c … 8c + 7. -/
def coreSum (gt no mk : Arr) (c : ℕ) (b : Fin 8) : EReal := ∑ i ∈ Finset.range 8, tileSum gt no mk (8 * c + i) b

/-- A tile inside the array: its share as a sum over the tile's eight rows. -/
theorem tileSum_eq (gt no mk : Arr) (p : ℕ) (hp : p < 16) (b : Fin 8) :
    tileSum gt no mk p b
      = ∑ x' : Fin 8, ∑ z : Fin 128, nrm gt no mk b ⟨8 * p + x'.val, by have := x'.isLt; omega⟩ z := by
  unfold tileSum
  rw [Finset.sum_range]
  refine Finset.sum_congr rfl fun x' _ => ?_
  unfold rowSum
  rw [dif_pos (by have := x'.isLt; omega)]

/-- A sum over `n · k` consecutive naturals is the sum over `n` runs of `k`. -/
theorem sum_range_mul {M : Type*} [AddCommMonoid M] (f : ℕ → M) (k : ℕ) :
    ∀ n : ℕ, ∑ X ∈ Finset.range (n * k), f X = ∑ p ∈ Finset.range n, ∑ x ∈ Finset.range k, f (k * p + x)
  | 0 => by simp
  | n + 1 => by
    rw [Nat.succ_mul, Finset.sum_range_add, sum_range_mul f k n, Finset.sum_range_succ, Nat.mul_comm k n]

/-- The two halves' shares, over all b, are the total: 2 · 8 · 8 rows are the 128 rows. -/
theorem total_eq (gt no mk : Arr) : ∑ c : Fin 2, ∑ b : Fin 8, coreSum gt no mk c.val b = total gt no mk := by
  unfold total
  rw [Finset.sum_comm]
  refine Finset.sum_congr rfl fun b _ => ?_
  have h128 : ∑ x : Fin 128, ∑ z : Fin 128, nrm gt no mk b x z = ∑ X ∈ Finset.range 128, rowSum gt no mk b X := by
    rw [Finset.sum_range]
    refine Finset.sum_congr rfl fun x _ => ?_
    unfold rowSum
    rw [dif_pos x.isLt]
  rw [h128, show (128 : ℕ) = 16 * 8 from rfl, sum_range_mul, show (16 : ℕ) = 2 * 8 from rfl, sum_range_mul]
  exact (Finset.sum_range fun c => coreSum gt no mk c b).symm

end Cert.Spec

end
-- ==== Proof.Accum.lean ====
/-
  What the output's staging buffer holds after each grid point, on the extended reals, at index (0, b, 0).
  One run of the body adds tile t's share to what the buffer held (the first inner step of a half starts from 0).
  So after point n the buffer holds the shares of the tiles of n's half up to n: by induction on the point.
  After the last point of half k it holds `Spec.coreSum k b`.
-/
import proofs.«178096_j8306466751246_2_alg».proof.Proof.KernelBody
import proofs.«178096_j8306466751246_2_alg».proof.Proof.Payload
import proofs.«178096_j8306466751246_2_alg».proof.Proof.Blocks
import proofs.«178096_j8306466751246_2_alg».proof.Proof.Spec

noncomputable section

namespace Cert.KernelIdeal.Accum

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The three argument arrays as the region finds them: truth, output, mask. -/
abbrev gtA (c : Dev nD) : Spec.Arr := V m c main_arg0
abbrev noA (c : Dev nD) : Spec.Arr := V m c main_arg1
abbrev mkA (c : Dev nD) : Spec.Arr := V m c main_arg2

/-- One run of the body's arithmetic at point t adds tile t's share. -/
theorem step_value (c : Dev nD) (t : Fin cfg0.N) (acc : FVec Ideal S1x8x1 .f32) (b : Fin 8) :
    k0_pay2 (F := Ideal) (iblk m c 1 t) (iblk m c 0 t) (iblk m c 2 t) acc (ix3 0 b 0)
      = acc (ix3 0 b 0) + Spec.tileSum (gtA m c) (noA m c) (mkA m c) t.val b := by
  have hN : t.val < 16 := lt_of_lt_of_eq t.isLt N_0
  refine (Payload.pay2_apply (iblk m c 1 t) (iblk m c 0 t) (iblk m c 2 t) acc b).trans ?_
  rw [Spec.tileSum_eq _ _ _ t.val hN b]
  refine congrArg (acc (ix3 0 b 0) + ·) ?_
  refine Finset.sum_congr rfl fun x' _ => Finset.sum_congr rfl fun z _ => ?_
  unfold Spec.nrm Spec.sq
  refine congrArg Ideal.sqrt (Finset.sum_congr rfl fun y _ => ?_)
  rw [Blocks.iblk0_apply m c t b x' y z ⟨8 * t.val + x'.val, by have := x'.isLt; omega⟩ rfl,
    Blocks.iblk1_apply m c t b x' y z ⟨8 * t.val + x'.val, by have := x'.isLt; omega⟩ rfl,
    Blocks.iblk2_apply m c t b x' y z ⟨8 * t.val + x'.val, by have := x'.isLt; omega⟩ rfl]

/-- The first inner step of a half leaves tile t's share. -/
theorem point_A (c : Dev nD) (t : Fin cfg0.N) (h0 : t.val % 8 = 0) (b : Fin 8) :
    outsAt0 m c t.val t.isLt (ix3 0 b 0) = Spec.tileSum (gtA m c) (noA m c) (mkA m c) t.val b := by
  rw [outsAt0_A m c t h0, Body.out_A, step_value m c t _ b, Payload.pay1_apply, zero_add]

/-- A later inner step adds tile t's share to what the point before left. -/
theorem point_B (c : Dev nD) (t : Fin cfg0.N) (h0 : ¬t.val % 8 = 0) (b : Fin 8) :
    outsAt0 m c t.val t.isLt (ix3 0 b 0)
      = outsAt0 m c (t.val - 1) (Nat.lt_of_le_of_lt (Nat.sub_le _ _) t.isLt) (ix3 0 b 0)
        + Spec.tileSum (gtA m c) (noA m c) (mkA m c) t.val b := by
  rw [outsAt0_B m c t h0, Body.out_B, step_value m c t _ b]

/-- After point n the buffer holds the shares of the tiles of n's half up to n. -/
theorem outsAt_eq (c : Dev nD) : ∀ (n : ℕ) (h : n < cfg0.N) (b : Fin 8),
    outsAt0 m c n h (ix3 0 b 0)
      = ∑ i ∈ Finset.range (n % 8 + 1), Spec.tileSum (gtA m c) (noA m c) (mkA m c) (n / 8 * 8 + i) b
  | 0, h, b => by
    rw [point_A m c ⟨0, h⟩ rfl b]
    simp
  | n + 1, h, b => by
    by_cases h0 : (n + 1) % 8 = 0
    · rw [point_A m c ⟨n + 1, h⟩ h0 b, h0, Finset.sum_range_one]
      refine congrArg (fun p => Spec.tileSum (gtA m c) (noA m c) (mkA m c) p b) ?_
      show n + 1 = (n + 1) / 8 * 8 + 0
      omega
    · rw [point_B m c ⟨n + 1, h⟩ h0 b]
      show outsAt0 m c n _ (ix3 0 b 0) + _ = _
      rw [outsAt_eq c n _ b, show (n + 1) % 8 = n % 8 + 1 from by omega, show (n + 1) / 8 = n / 8 from by omega,
        Finset.sum_range_succ _ (n % 8 + 1)]
      refine congrArg (_ + ·) (congrArg (fun p => Spec.tileSum (gtA m c) (noA m c) (mkA m c) p b) ?_)
      show n + 1 = n / 8 * 8 + (n % 8 + 1)
      omega

/-- After the last point of half k the buffer holds half k's share. -/
theorem outsAt_last (c : Dev nD) (k : ℕ) (h : 8 * k + 7 < cfg0.N) (b : Fin 8) :
    outsAt0 m c (8 * k + 7) h (ix3 0 b 0) = Spec.coreSum (gtA m c) (noA m c) (mkA m c) k b := by
  rw [outsAt_eq m c (8 * k + 7) h b, show (8 * k + 7) % 8 + 1 = 8 from by omega]
  unfold Spec.coreSum
  refine Finset.sum_congr rfl fun i _ => congrArg (fun p => Spec.tileSum (gtA m c) (noA m c) (mkA m c) p b) ?_
  omega

end Cert.KernelIdeal.Accum

end
-- ==== Proof.Partials.lean ====
/-
  The array of partial sums after the region: entry (k, b, 0) is half k's share `Spec.coreSum k b`.
  The output's block is written back only after the last inner step of a half (points 7 and 15); what is written is
  what the buffer holds then (`Accum.outsAt_last`), and the two blocks are the two rows of the [2, 8, 1] array.
-/
import proofs.«178096_j8306466751246_2_alg».proof.Proof.Accum

noncomputable section

namespace Cert.KernelIdeal.Partials

open Cert.KernelIdeal Cert.KernelIdeal.Gen Cert.KernelIdeal.Accum Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- The partial sums: half k's share for batch entry b, at (k, b, 0). -/
def partials (c : Dev nD) : S2x8x1.Idx → EReal :=
  fun i => Spec.coreSum (gtA m c) (noA m c) (mkA m c) (i 0).val ⟨(i 1).val, (i 1).isLt⟩

/-- At the last point of a half the buffer holds, at each index of the block, the partial sum at the array index the
    block puts it at. -/
theorem held_at_last (c : Dev nD) (t : Fin cfg0.N) (h7 : t.val % 8 = 7) (y : S1x8x1.Idx) :
    outsAt0 m c t.val t.isLt y = partials m c (((cfg0.win 3).blk t).view.emb y) := by
  have hN : t.val < 16 := lt_of_lt_of_eq t.isLt N_0
  obtain ⟨e0, e1, e2⟩ := Blocks.idx_out t
  obtain ⟨b, rfl⟩ : ∃ b : Fin 8, y = ix3 (0 : Fin 1) b (0 : Fin 1) := ⟨⟨(y 1).val, (y 1).isLt⟩, by
    funext a; apply Fin.ext
    match a with
    | ⟨0, _⟩ => show (y 0).val = 0; have : (y 0).val < 1 := (y 0).isLt; omega
    | ⟨1, _⟩ => rfl
    | ⟨2, _⟩ => show (y 2).val = 0; have : (y 2).val < 1 := (y 2).isLt; omega⟩
  have key : ∀ (n : ℕ) (h : n < cfg0.N), n = 8 * (t.val / 8) + 7 →
      outsAt0 m c n h (ix3 0 b 0) = Spec.coreSum (gtA m c) (noA m c) (mkA m c) (t.val / 8) b := by
    intro n h e; subst e; exact outsAt_last m c _ h b
  rw [key t.val t.isLt (by omega)]
  unfold partials
  refine (congrArg₂ (fun k b' => Spec.coreSum (gtA m c) (noA m c) (mkA m c) k b') ?_ ?_).symm
  · show win0_3.index t (0 : Fin 3) * 1 + 1 * 0 = t.val / 8
    rw [e0]; omega
  · apply Fin.ext
    show win0_3.index t (1 : Fin 3) * 8 + 1 * b.val = b.val
    rw [e1]; omega

/-- What a write-back point writes is its row of the partial sums. -/
theorem flushed_eq (c : Dev nD) (t : Fin cfg0.N) (hf : (cfg0.win 3).flush t = true) :
    (dats m 0 c).flushed 3 t = ((cfg0.win 3).blk t).view.read (Elt Ideal) (partials m c) := by
  have h7 : t.val % 8 = 7 := (flush0_3 t).mp hf
  show (cfg0.win 3).cut (grid0.coords t) ((dats m 0 c).after 3 t) = _
  rw [after0_3]
  funext y
  rw [View.read_apply]
  exact held_at_last m c t h7 y

/-- An index of the array is in point t's block iff each coordinate is in the block's range on its axis. -/
theorem mem_blk (t : Fin cfg0.N) (i : S2x8x1.Idx) :
    i ∈ ((cfg0.win 3).blk t).view.set ↔ ∀ a : Fin 3, win0_3.index t a * S1x8x1.size a ≤ (i a).val
      ∧ (i a).val < win0_3.index t a * S1x8x1.size a + S1x8x1.size a := by
  show i ∈ ((View.whole main_v0).slice (win0_3.rect t)).set ↔ _
  rw [View.set_slice_whole, Rect.mem_set_unit]
  exact Iff.rfl

/-- Every index of the array is in the block some write-back point writes: row k by point 8k + 7. -/
theorem cover (i : S2x8x1.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 1 := (i 2).isLt
  have hN : cfg0.N = 16 := N_0
  obtain ⟨t, tv⟩ : ∃ t : Fin cfg0.N, t.val = 8 * (i 0).val + 7 := ⟨⟨8 * (i 0).val + 7, by rw [hN]; omega⟩, rfl⟩
  obtain ⟨e0, e1, e2⟩ := Blocks.idx_out t
  refine ⟨t, (flush0_3 t).mpr (by rw [tv]; omega), ?_⟩
  rw [mem_blk]
  intro a
  match a with
  | ⟨0, _⟩ =>
    show win0_3.index t (0 : Fin 3) * 1 ≤ (i 0).val ∧ (i 0).val < win0_3.index t (0 : Fin 3) * 1 + 1
    rw [e0, tv]; omega
  | ⟨1, _⟩ =>
    show win0_3.index t (1 : Fin 3) * 8 ≤ (i 1).val ∧ (i 1).val < win0_3.index t (1 : Fin 3) * 8 + 8
    rw [e1]; omega
  | ⟨2, _⟩ =>
    show win0_3.index t (2 : Fin 3) * 1 ≤ (i 2).val ∧ (i 2).val < win0_3.index t (2 : Fin 3) * 1 + 1
    rw [e2]; omega

/-- After the region the output array holds the partial sums. -/
theorem final (c : Dev nD) : (dats m 0 c).arrAt 3 cfg0.N = partials m c :=
  (dats m 0 c).arrAt_eq_of_cover 3 (partials m c) (flushed_eq m c) cover

end Cert.KernelIdeal.Partials

end
-- ==== Proof.LibIdx3.lean ====
/-
  A rank-3 index set is the product of its three coordinate ranges, so a sum over it is the triple sum over the
  coordinates (the rank-3 companion of the library's `sum_idx2`). Program-free.
-/
import Idealize.ShloMosaic.Lib.ValueIdx

noncomputable section

namespace Cert.LibIdx3

open Idealize.ShloMosaic Idealize.ShloMosaic.ValueIdx
open scoped BigOperators

/-- A rank-3 index and its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx3

end
-- ==== Proof.KernelLoss.lean ====
/-
  The kernel program's result is the loss. After the region the host sums the [2, 8, 1] array of partial sums and
  divides by 131072; the partial sums add up to `Spec.total` (`Spec.total_eq`), so the result is `Spec.loss` of the
  three arguments, which the run leaves unchanged.
-/
import proofs.«178096_j8306466751246_2_alg».proof.Proof.Partials
import proofs.«178096_j8306466751246_2_alg».proof.Proof.LibIdx3
import Idealize.ShloMosaic.Lib.StableHlo.Run

noncomputable section

namespace Cert.KernelIdeal.Loss

open Cert.KernelIdeal Cert.KernelIdeal.Gen Cert.KernelIdeal.Accum Cert.KernelIdeal.Partials
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg)

/-- The partial sums add up to the total. -/
theorem sum_partials (c : Dev nD) :
    ∑ j : S2x8x1.Idx, partials m c j = Spec.total (gtA m c) (noA m c) (mkA m c) := by
  rw [LibIdx3.sum_idx3, ← Spec.total_eq]
  refine Finset.sum_congr rfl fun k _ => Finset.sum_congr rfl fun b _ => ?_
  rw [Fin.sum_univ_one]
  rfl

/-- What the host operations after the region leave in the result buffer. -/
theorem tail_eq (c : Dev nD) :
    Pipeline.afterTail₀ cfgs (dats m) 0 (V0 m) [hostOps1] c main_v2
      = fun _ => Spec.loss (gtA m c) (noA m c) (mkA m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v0) = partials m c :=
    (Pipeline.withArrays_arr spec0 winFacts0.arr_inj c _ _ 3).trans (final m c)
  rw [hA]
  funext i
  show FloatOps.hostDivf (Host.reduceAdd (F := Ideal) (partials m c) (constant S_ .f32 0x00000000#32)
    reducesTo_S2x8x1_S_d0_1_2 h_S_ i) (Ideal.ofBits .f32 0x48000000#32) = _
  simp only [Host.reduceAdd, Ideal.hostReduceAdd_def]
  rw [Ideal.hostReduceAdd_total reducesTo_S2x8x1_S_d0_1_2 (fun b => b.elim0) (partials m c) _ i, sum_partials]
  simp only [Ideal.hostDivf_def, constant_apply, Ideal.ofBits_zero_f32, zero_add]
  rfl

/-- The result buffer is unscoped and no window's array, so the run's post states it through the tail. -/
theorem result_mem_rest : main_v2 ∈ Pipeline.restRefs sig (cfgs 0).spec :=
  Pipeline.mem_restRefs_of main_v2 rfl (fun w => by fin_cases w <;> decide)

/-- The run: every execution terminates with the result at the loss of the three arguments, which are unchanged. -/
theorem run : θ_run defs (onTc (τ := τ) (main (F := Ideal))) ⟨m, fun _ => 0, ρ⟩ fun r => ∀ c : Dev nD,
      r.2.mem ((c.tc : Thread nD τ).loc main_v2)
        = (fun _ => Spec.loss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v2 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Loss

end
-- ==== Proof.RefLoss.lean ====
/-
  The reference's result is the loss: its last stage, read at its one index, is `Spec.loss` of the three arguments.
  The reference drops the unit axis (a reshape, read at (b, x, y, z) as the argument at (b, 0, x, y, z)), forms
  (mk · (no − gt))², sums it over y, takes the square root, sums everything, and divides by 131072.
-/
import proofs.«178096_j8306466751246_2_alg».proof.Proof.Gen.ReferenceIdeal.Read
import proofs.«178096_j8306466751246_2_alg».proof.Proof.Spec
import proofs.«178096_j8306466751246_2_alg».proof.Proof.LibIdx3

noncomputable section

namespace Cert.RefLoss

open Cert.ReferenceIdeal Cert.ReferenceIdeal.Read Idealize.ShloMosaic Idealize.ShloMosaic.ValueIdx
open scoped BigOperators

/-- The reshape's source index at (b, x, y, z) is (b, 0, x, y, z). -/
theorem idx_v0 (b : Fin 8) (x y z : Fin 128) : idx_main_v0 (ix4 b x y z) = ix5 b 0 x y z := by
  have hb := b.isLt; have hx := x.isLt; have hy := y.isLt; have hz := z.isLt
  funext a; apply Fin.ext
  match a with
  | ⟨0, _⟩ => show (((b.val * 128 + x.val) * 128 + y.val) * 128 + z.val) / 2097152 = b.val; omega
  | ⟨1, _⟩ => rfl
  | ⟨2, _⟩ => show (((b.val * 128 + x.val) * 128 + y.val) * 128 + z.val) / 16384 % 128 = x.val; omega
  | ⟨3, _⟩ => show (((b.val * 128 + x.val) * 128 + y.val) * 128 + z.val) / 128 % 128 = y.val; omega
  | ⟨4, _⟩ => show (((b.val * 128 + x.val) * 128 + y.val) * 128 + z.val) % 128 = z.val; omega

theorem idx_v1 (b : Fin 8) (x y z : Fin 128) : idx_main_v1 (ix4 b x y z) = ix5 b 0 x y z := idx_v0 b x y z
theorem idx_v2 (b : Fin 8) (x y z : Fin 128) : idx_main_v2 (ix4 b x y z) = ix5 b 0 x y z := idx_v0 b x y z

/-- The reduced axis put back: the y-sum at (b, x, z) runs over (b, x, y, z). -/
theorem idx_v6 (b : Fin 8) (x z : Fin 128) (y : Fin 128) : idx_main_v6 (ix3 b x z) y = ix4 b x y z :=
  funext fun a => Fin.ext (by match a with | ⟨0, _⟩ => rfl | ⟨1, _⟩ => rfl | ⟨2, _⟩ => rfl | ⟨3, _⟩ => rfl)

/-- The squared masked difference, as the reference forms it. -/
theorem v5_apply (x0 x1 x2 : Spec.Arr) (b : Fin 8) (x y z : Fin 128) :
    val_main_v5 (F := Ideal) x0 x1 x2 (ix4 b x y z) = Spec.sq x0 x1 x2 b x y z := by
  rw [val_main_v5_apply, val_main_v4_apply, val_main_v3_apply, val_main_v0_apply, val_main_v1_apply, val_main_v2_apply,
    idx_v0, idx_v1, idx_v2]
  rfl

/-- The norm along y, as the reference forms it. -/
theorem v7_apply (x0 x1 x2 : Spec.Arr) (b : Fin 8) (x z : Fin 128) :
    val_main_v7 (F := Ideal) x0 x1 x2 (ix3 b x z) = Spec.nrm x0 x1 x2 b x z := by
  rw [val_main_v7_apply, val_main_v6_apply, val_main_cst_apply]
  simp only [idx_v6, v5_apply, Ideal.hostUnary_sqrt_def, Ideal.ofBits_def, Ideal.ofBits_zero_f32, zero_add]
  rfl

/-- The reference's result is the loss. -/
theorem result_eq (x0 x1 x2 : Spec.Arr) (i : S_.Idx) :
    val_main_v9 (F := Ideal) x0 x1 x2 i = Spec.loss x0 x1 x2 := by
  rw [val_main_v9_apply, val_main_v8_apply, val_main_cst_0_apply, val_main_cst_1_apply, LibIdx3.sum_idx3]
  simp only [v7_apply, Ideal.hostDivf_def, Ideal.ofBits_def, Ideal.ofBits_zero_f32, zero_add]
  rfl

end Cert.RefLoss

end
-- ==== Proof.lean ====
/-
  The kernel and the reference compute one function of the three arrays on the extended reals:

      loss = (∑ over b, x, z of √(∑ over y of (mask · (output − truth))²)) / 131072      (Proof/Spec.lean).

  The reference forms the norms over y, sums them all at once and divides (Proof/RefLoss.lean, over the generated
  reading of its run). The kernel cuts the 128 rows x into 16 tiles of 8 and the tiles into two halves; each grid
  point adds its tile's share into its half's row of a [2, 8, 1] array of partial sums, starting each half from zero
  (Proof/KernelBody.lean: what one run of the body leaves; Proof/Payload.lean: the body's arithmetic at an index;
  Proof/Blocks.lean: where the blocks sit; Proof/Accum.lean: the running sum by induction on the grid point;
  Proof/Partials.lean: the array after the region), and the host then sums the partial sums and divides
  (Proof/KernelLoss.lean). The two groupings of the sum agree because addition on the extended reals is commutative
  and associative (`Spec.total_eq`); no finiteness of the inputs is needed for the value, and the divisor is the same
  f32 word on both sides.
  The three frames are the generated frame of each kernel program and the reference's generated run with its result
  dropped; the idealized kernel is the printed kernel read at the ideal instance with no rewrite, so that conjunct is
  trivial.
-/
import proofs.«178096_j8306466751246_2_alg».proof.Defs
import proofs.«178096_j8306466751246_2_alg».proof.Proof.Gen.Kernel
import proofs.«178096_j8306466751246_2_alg».proof.Proof.Gen.Kernel.Skeleton
import proofs.«178096_j8306466751246_2_alg».proof.Proof.Gen.Kernel.Launch
import proofs.«178096_j8306466751246_2_alg».proof.Proof.Gen.Kernel.Points
import proofs.«178096_j8306466751246_2_alg».proof.Proof.Gen.Kernel.Frame
import proofs.«178096_j8306466751246_2_alg».proof.Proof.Gen.KernelIdeal
import proofs.«178096_j8306466751246_2_alg».proof.Proof.Gen.KernelIdeal.Skeleton
import proofs.«178096_j8306466751246_2_alg».proof.Proof.Gen.KernelIdeal.Launch
import proofs.«178096_j8306466751246_2_alg».proof.Proof.Gen.KernelIdeal.Points
import proofs.«178096_j8306466751246_2_alg».proof.Proof.Gen.KernelIdeal.Frame
import proofs.«178096_j8306466751246_2_alg».proof.Proof.Gen.ReferenceIdeal
import proofs.«178096_j8306466751246_2_alg».proof.Proof.Gen.ReferenceIdeal.Run
import proofs.«178096_j8306466751246_2_alg».proof.Proof.Gen.ReferenceIdeal.Read
import proofs.«178096_j8306466751246_2_alg».proof.Proof.Gen.Pre_finite_inputs
import proofs.«178096_j8306466751246_2_alg».proof.Proof.KernelLoss
import proofs.«178096_j8306466751246_2_alg».proof.Proof.RefLoss
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on the three arguments both programs end with the loss of those arguments. -/
theorem algebraic : Cert.algebraic_KernelIdeal_ReferenceIdeal := by
  intro m ρ m' ρ' _ hagree
  refine ⟨_, Cert.KernelIdeal.Loss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, (hagree c).1, (hagree c).2.1, (hagree c).2.2]
  funext i
  exact Cert.RefLoss.result_eq _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
